-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x3x128 : Shape := ⟨4, ![8, 128, 3, 128]⟩
abbrev S8x128x128x3 : Shape := ⟨4, ![8, 128, 128, 3]⟩
abbrev S256x128 : Shape := ⟨2, ![256, 128]⟩
abbrev S128 : Shape := ⟨1, ![128]⟩
abbrev S_ : Shape := ⟨0, ![]⟩

class Facts : Prop where
  bcast_S_S8x128x3x128 : S_.BroadcastsInDim S8x128x3x128 (![] : Fin 0 → Fin S8x128x3x128.rank)
  reducesTo_S8x128x3x128_S_d0_1_2_3 : S8x128x3x128.ReducesTo [0, 1, 2, 3] S_
  h_S_ : 0 < S_.numel
  bcast_S_S8x128x128x3 : S_.BroadcastsInDim S8x128x128x3 (![] : Fin 0 → Fin S8x128x128x3.rank)
  reducesTo_S8x128x128x3_S_d0_1_2_3 : S8x128x128x3.ReducesTo [0, 1, 2, 3] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x128x3x128 .f32) (main_arg1 : FVec F S8x128x128x3 .f32) (main_arg2 : FVec F S256x128 .f32) (main_arg3 : FVec F S128 .f32) : IVec S_ 1 :=
  let main_v0 : FVec F S8x128x3x128 .f32 := Host.absf main_arg0
  let main_cst : FVec F S_ .f32 := constant S_ .f32 0x7F800000#32
  let main_v1 : FVec F S8x128x3x128 .f32 := broadcastInDim S8x128x3x128 ![] bcast_S_S8x128x3x128 main_cst
  let main_v2 : IVec S8x128x3x128 1 := cmpf .olt main_v0 main_v1
  let main_c : IVec S_ 1 := constantI S_ 1 1#1
  let main_v3 : IVec S_ 1 := (fun x v => Host.reduce IntOp.andi x v reducesTo_S8x128x3x128_S_d0_1_2_3 h_S_) main_v2 main_c
  let main_v4 : FVec F S8x128x128x3 .f32 := Host.absf main_arg1
  let main_cst_0 : FVec F S_ .f32 := constant S_ .f32 0x7F800000#32
  let main_v5 : FVec F S8x128x128x3 .f32 := broadcastInDim S8x128x128x3 ![] bcast_S_S8x128x128x3 main_cst_0
  let main_v6 : IVec S8x128x128x3 1 := cmpf .olt main_v4 main_v5
  let main_c_1 : IVec S_ 1 := constantI S_ 1 1#1
  let main_v7 : IVec S_ 1 := (fun x v => Host.reduce IntOp.andi x v reducesTo_S8x128x128x3_S_d0_1_2_3 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x128x3x128 : Shape := ⟨4, ![8, 128, 3, 128]⟩
abbrev S8x128x128x3 : Shape := ⟨4, ![8, 128, 128, 3]⟩
abbrev S256x128 : Shape := ⟨2, ![256, 128]⟩
abbrev S128 : Shape := ⟨1, ![128]⟩
abbrev S8x3x128x128 : Shape := ⟨4, ![8, 3, 128, 128]⟩
abbrev S8x128x128x128 : Shape := ⟨4, ![8, 128, 128, 128]⟩
abbrev S1x3x128x128 : Shape := ⟨4, ![1, 3, 128, 128]⟩
abbrev S1x128x128x128 : Shape := ⟨4, ![1, 128, 128, 128]⟩
abbrev S128x128 : Shape := ⟨2, ![128, 128]⟩
abbrev S1x1x128x128 : Shape := ⟨4, ![1, 1, 128, 128]⟩
abbrev S1x128 : Shape := ⟨2, ![1, 128]⟩
abbrev S128x128x1 : Shape := ⟨3, ![128, 128, 1]⟩
abbrev S128x1x128 : Shape := ⟨3, ![128, 1, 128]⟩
abbrev S1x128x128 : Shape := ⟨3, ![1, 128, 128]⟩
abbrev S128x128x128 : Shape := ⟨3, ![128, 128, 128]⟩

abbrev nBuf : Space → Nat
  | .hbm => 7
  | .vmem => 8
  | .smem => 0
  | _ => 0

abbrev bufTy : (tb : Table) → Fin (tcTables nBuf tb) → BufTy
  | .hbm, ⟨0, _⟩ => ⟨S8x128x3x128, .f32⟩
  | .hbm, ⟨1, _⟩ => ⟨S8x128x128x3, .f32⟩
  | .hbm, ⟨2, _⟩ => ⟨S256x128, .f32⟩
  | .hbm, ⟨3, _⟩ => ⟨S128, .f32⟩
  | .hbm, ⟨4, _⟩ => ⟨S8x3x128x128, .f32⟩
  | .hbm, ⟨5, _⟩ => ⟨S8x3x128x128, .f32⟩
  | .hbm, ⟨6, _⟩ => ⟨S8x128x128x128, .f32⟩
  | .local _ .vmem, ⟨0, _⟩ => ⟨S1x3x128x128, .f32⟩
  | .local _ .vmem, ⟨1, _⟩ => ⟨S1x3x128x128, .f32⟩
  | .local _ .vmem, ⟨2, _⟩ => ⟨S1x3x128x128, .f32⟩
  | .local _ .vmem, ⟨3, _⟩ => ⟨S1x3x128x128, .f32⟩
  | .local _ .vmem, ⟨4, _⟩ => ⟨S256x128, .f32⟩
  | .local _ .vmem, ⟨5, _⟩ => ⟨S128, .f32⟩
  | .local _ .vmem, ⟨6, _⟩ => ⟨S1x128x128x128, .f32⟩
  | .local _ .vmem, ⟨7, _⟩ => ⟨S1x128x128x128, .f32⟩
  | _, _ => ⟨S8x128x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S8x128x3x128_S8x3x128x128_0_2_1_3 : S8x128x3x128.Transposes [0, 2, 1, 3] S8x3x128x128
  transposes_S8x128x128x3_S8x3x128x128_0_3_1_2 : S8x128x128x3.Transposes [0, 3, 1, 2] S8x3x128x128
  inb_S256x128_S128x128_0_0 : ∀ a, (![0, 0] : Fin 2 → Nat) a + S128x128.size a ≤ S256x128.size a
  h_S128x128 : 0 < S128x128.numel
  bitsLt_bf16_f32 : FTy.bits .bf16 < FTy.bits .f32
  inb_S256x128_S128x128_128_0 : ∀ a, (![128, 0] : Fin 2 → Nat) a + S128x128.size a ≤ S256x128.size a
  inb_S128_S128_0 : ∀ a, (![0] : Fin 1 → Nat) a + S128.size a ≤ S128.size a
  h_S128 : 0 < S128.numel
  inb_S1x3x128x128_S1x1x128x128_0_0_0_0 : ∀ a, (![0, 0, 0, 0] : Fin 4 → Nat) a + S1x1x128x128.size a ≤ S1x3x128x128.size a
  h_S1x1x128x128 : 0 < S1x1x128x128.numel
  shapeCasts_S1x1x128x128_S128x128 : S1x1x128x128.ShapeCasts S128x128
  shapeCasts_S128_S1x128 : S128.ShapeCasts S1x128
  broadcasts_S1x128_S128x128 : S1x128.Broadcasts S128x128
  shapeCasts_S128x128_S128x128x1 : S128x128.ShapeCasts S128x128x1
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  broadcasts_S128x128x1_S128x128x128 : S128x128x1.Broadcasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  inb_S1x3x128x128_S1x1x128x128_0_1_0_0 : ∀ a, (![0, 1, 0, 0] : Fin 4 → Nat) a + S1x1x128x128.size a ≤ S1x3x128x128.size a
  inb_S1x3x128x128_S1x1x128x128_0_2_0_0 : ∀ a, (![0, 2, 0, 0] : Fin 4 → Nat) a + S1x1x128x128.size a ≤ S1x3x128x128.size a
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x128x128.size a ≤ S8x3x128x128.size a
  hwx0_0 : ∀ i : grid0.Coords, EltTy.bits .f32 = 32 ∨ (Rect.block (s := S8x3x128x128) S1x3x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x128x128.size a ≤ S8x3x128x128.size a
  hwx0_1 : ∀ i : grid0.Coords, EltTy.bits .f32 = 32 ∨ (Rect.block (s := S8x3x128x128) S1x3x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128x128.size a ≤ S8x128x128x128.size a
  hwx0_4 : ∀ i : grid0.Coords, EltTy.bits .f32 = 32 ∨ (Rect.block (s := S8x128x128x128) S1x128x128x128.size (cc0_transform_4 i) (hinb0_4 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v0) S1x3x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x3x128 : Shape := ⟨4, ![8, 128, 3, 128]⟩
abbrev S8x128x128x3 : Shape := ⟨4, ![8, 128, 128, 3]⟩
abbrev S256x128 : Shape := ⟨2, ![256, 128]⟩
abbrev S128 : Shape := ⟨1, ![128]⟩
abbrev S128x128 : Shape := ⟨2, ![128, 128]⟩
abbrev S8x128x1x3x128 : Shape := ⟨5, ![8, 128, 1, 3, 128]⟩
abbrev S8x1x128x3x128 : Shape := ⟨5, ![8, 1, 128, 3, 128]⟩
abbrev S8x128x128x3x128 : Shape := ⟨5, ![8, 128, 128, 3, 128]⟩
abbrev S1x1x1x1x128 : Shape := ⟨5, ![1, 1, 1, 1, 128]⟩
abbrev S8x128x128x3x1 : Shape := ⟨5, ![8, 128, 128, 3, 1]⟩
abbrev S_ : Shape := ⟨0, ![]⟩
abbrev S8x128x128x128 : Shape := ⟨4, ![8, 128, 128, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x128x3x128, .f32⟩
  | .hbm, ⟨1, _⟩ => ⟨S8x128x128x3, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S8x128x3x128, .f32⟩
  | .hbm, ⟨6, _⟩ => ⟨S128x128, .f32⟩
  | .hbm, ⟨7, _⟩ => ⟨S8x128x3x128, .f32⟩
  | .hbm, ⟨8, _⟩ => ⟨S8x128x1x3x128, .f32⟩
  | .hbm, ⟨9, _⟩ => ⟨S8x1x128x3x128, .f32⟩
  | .hbm, ⟨10, _⟩ => ⟨S8x128x128x3x128, .f32⟩
  | .hbm, ⟨11, _⟩ => ⟨S8x128x128x3x128, .f32⟩
  | .hbm, ⟨12, _⟩ => ⟨S8x128x128x3x128, .f32⟩
  | .hbm, ⟨13, _⟩ => ⟨S1x1x1x1x128, .f32⟩
  | .hbm, ⟨14, _⟩ => ⟨S8x128x128x3x128, .f32⟩
  | .hbm, ⟨15, _⟩ => ⟨S8x128x128x3x128, .f32⟩
  | .hbm, ⟨16, _⟩ => ⟨S8x128x128x3x1, .f32⟩
  | .hbm, ⟨17, _⟩ => ⟨S8x128x128x3x128, .f32⟩
  | .hbm, ⟨18, _⟩ => ⟨S8x128x128x3x128, .f32⟩
  | .hbm, ⟨19, _⟩ => ⟨S_, .f32⟩
  | .hbm, ⟨20, _⟩ => ⟨S8x128x128x128, .f32⟩
  | _, _ => ⟨S8x128x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S8x128x3x128_S8x128x1x3x128_0_1_3_4 : S8x128x3x128.BroadcastsInDim S8x128x1x3x128 (![0, 1, 3, 4] : Fin 4 → Fin S8x128x1x3x128.rank)
  bcast_S8x128x3x128_S8x1x128x3x128_0_2_3_4 : S8x128x3x128.BroadcastsInDim S8x1x128x3x128 (![0, 2, 3, 4] : Fin 4 → Fin S8x1x128x3x128.rank)
  bcast_S8x128x1x3x128_S8x128x128x3x128_0_1_2_3_4 : S8x128x1x3x128.BroadcastsInDim S8x128x128x3x128 (![0, 1, 2, 3, 4] : Fin 5 → Fin S8x128x128x3x128.rank)
  bcast_S8x1x128x3x128_S8x128x128x3x128_0_1_2_3_4 : S8x1x128x3x128.BroadcastsInDim S8x128x128x3x128 (![0, 1, 2, 3, 4] : Fin 5 → Fin S8x128x128x3x128.rank)
  bcast_S128_S1x1x1x1x128_4 : S128.BroadcastsInDim S1x1x1x1x128 (![4] : Fin 1 → Fin S1x1x1x1x128.rank)
  bcast_S1x1x1x1x128_S8x128x128x3x128_0_1_2_3_4 : S1x1x1x1x128.BroadcastsInDim S8x128x128x3x128 (![0, 1, 2, 3, 4] : Fin 5 → Fin S8x128x128x3x128.rank)
  bcast_S8x128x128x3_S8x128x128x3x1_0_1_2_3 : S8x128x128x3.BroadcastsInDim S8x128x128x3x1 (![0, 1, 2, 3] : Fin 4 → Fin S8x128x128x3x1.rank)
  bcast_S8x128x128x3x1_S8x128x128x3x128_0_1_2_3_4 : S8x128x128x3x1.BroadcastsInDim S8x128x128x3x128 (![0, 1, 2, 3, 4] : Fin 5 → Fin S8x128x128x3x128.rank)
  reducesTo_S8x128x128x3x128_S8x128x128x128_d3 : S8x128x128x3x128.ReducesTo [3] S8x128x128x128
  h_S_ : 0 < S_.numel
  dot_S8x128x3x128_S128x128_S8x128x3x128_3_0_012_1_n_n_wf : DotDims.WF S8x128x3x128 S128x128 S8x128x3x128 [3] [0] [0, 1, 2] [1] [] []

variable [Facts₀]

def dot_S8x128x3x128_S128x128_S8x128x3x128_3_0_012_1_n_n : DotDims S8x128x3x128 S128x128 S8x128x3x128 where
  lhsContracting := [3]
  rhsContracting := [0]
  lhsNonContracting := [0, 1, 2]
  rhsNonContracting := [1]
  lhsBatch := []
  rhsBatch := []
  wf := dot_S8x128x3x128_S128x128_S8x128x3x128_3_0_012_1_n_n_wf

class Facts : Prop extends Facts₀ where

variable [Facts]
-- ==== Proof.BodyTerm.lean ====
/-
  What one grid point's body leaves in its output block, as ONE term of the four input blocks.

  The body reads the upper and lower halves of the weights (rows 0..127 and 128..255), the bias, and for
  each axis c = 0, 1, 2 the slab c of the feature block and the slab c of the distance block.  It stores
  the axis-0 term, then twice loads the block back, adds the next axis' term and stores again; so the
  block ends as (term0 + term1) + term2, each addition reading what the previous store left.
-/
import proofs.«172709_j6451040878946_2_alg».proof.Proof.Gen.KernelIdeal.Skeleton
import Idealize.ShloMosaic.Lib.Pipeline.FrameBody

noncomputable section

namespace Cert.KernelIdeal.BlockValue

open Cert.KernelIdeal Cert.KernelIdeal.Gen Idealize.ShloMosaic

variable {F : FTy → Type} [FloatOps F]

/-- Rows 0..127 of the weight block. -/
def wLo (x2 : Vec F S256x128 .f32) : Vec F S128x128 .f32 :=
  View.ld x2 (Rect.unit (s := S256x128) ![0, 0] S128x128.size inb_S256x128_S128x128_0_0)
/-- Rows 128..255 of the weight block. -/
def wHi (x2 : Vec F S256x128 .f32) : Vec F S128x128 .f32 :=
  View.ld x2 (Rect.unit (s := S256x128) ![128, 0] S128x128.size inb_S256x128_S128x128_128_0)
/-- Slab 0, 1, 2 along the second axis of a [1,3,128,128] block. -/
def slab0 (x : Vec F S1x3x128x128 .f32) : Vec F S1x1x128x128 .f32 :=
  View.ld x (Rect.unit (s := S1x3x128x128) ![0, 0, 0, 0] S1x1x128x128.size inb_S1x3x128x128_S1x1x128x128_0_0_0_0)
def slab1 (x : Vec F S1x3x128x128 .f32) : Vec F S1x1x128x128 .f32 :=
  View.ld x (Rect.unit (s := S1x3x128x128) ![0, 1, 0, 0] S1x1x128x128.size inb_S1x3x128x128_S1x1x128x128_0_1_0_0)
def slab2 (x : Vec F S1x3x128x128 .f32) : Vec F S1x1x128x128 .f32 :=
  View.ld x (Rect.unit (s := S1x3x128x128) ![0, 2, 0, 0] S1x1x128x128.size inb_S1x3x128x128_S1x1x128x128_0_2_0_0)

/-- The output block after the body: the third store's payload, over the second's, over the first's. -/
def body (x0 x1 : Vec F S1x3x128x128 .f32) (x2 : Vec F S256x128 .f32) (x3 : Vec F S128 .f32) : Vec F S1x128x128x128 .f32 :=
  k0_pay1
    (k0_pay10 (k0_pay2 (wLo x2)) (k0_pay3 (wHi x2)) x3 (slab2 x0) (slab2 x1))
    (k0_pay9 (k0_pay6 (wLo x2) (slab1 x0)) (k0_pay7 (wHi x2) (slab1 x0)) (k0_pay8 x3) (slab1 x1)
      (k0_pay4 (wLo x2) (wHi x2) x3 (slab0 x0) (slab0 x1)))

end Cert.KernelIdeal.BlockValue

end
-- ==== Proof.LibReadBack.lean ====
/-
  A whole-buffer load after whole-buffer stores reads the last store's payload.

  A body that accumulates into its output buffer stores the whole buffer, loads it whole, adds, and
  stores it whole again.  The load then sees exactly what the most recent whole store left, whatever was
  stored before it: the earlier pieces lie entirely under the last one.
-/
import Idealize.ShloMosaic.Lib.Pipeline.Value

noncomputable section

namespace ReadBack

open Idealize.ShloMosaic

variable {Val : EltTy → Type} {S : Shape} {e : EltTy}

/-- After a list of stores whose most recent one covers the whole shape (unit strides from zero offsets,
    however the zeros are spelt), a load of the whole shape reads that store's payload. -/
theorem readCov_cons_whole [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., View.mem_set_unit_zero rfl inb y⟩),
    View.canon_cons_unit_zero rfl, View.ld_unit_zero rfl]

end ReadBack

end
-- ==== Proof.BlockBody.lean ====
/-
  The run of the body found three whole-block stores into the output buffer, the second and third
  computed from loads of what the store before left.  Read back, the buffer holds the last store's
  payload, in which each load of the output is the previous store's payload and each load of an input
  reads that input's block: the one term `body` of the four input blocks.
-/
import proofs.«172709_j6451040878946_2_alg».proof.Proof.Gen.KernelIdeal.Frame
import proofs.«172709_j6451040878946_2_alg».proof.Proof.BodyTerm
import proofs.«172709_j6451040878946_2_alg».proof.Proof.LibReadBack
import Idealize.ShloMosaic.Lib.Pipeline.Value
import Idealize.ShloMosaic.Lib.Tactic

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.Tactic

variable {F : FTy → Type} [FloatOps F]

theorem hz4 : (![0, 0, 0, 0] : Fin 4 → Nat) = fun _ => 0 := funext fun a => by fin_cases a <;> rfl
theorem hz1 : (![0] : Fin 1 → Nat) = fun _ => 0 := funext fun a => by fin_cases a <;> rfl

/-- What the body leaves in the output's staging buffer is `body` of the input blocks, on any staging memrefs. -/
theorem out_body (c : Dev nD) (i : grid0.Coords) (a1 : Memref sig .tc .vmem S1x3x128x128 .f32) (h1 : a1.IsWhole)
    (a2 : Memref sig .tc .vmem S1x3x128x128 .f32) (h2 : a2.IsWhole) (a3 : Memref sig .tc .vmem S256x128 .f32) (h3 : a3.IsWhole)
    (a4 : Memref sig .tc .vmem S128 .f32) (h4 : a4.IsWhole) (a5 : Memref sig .tc .vmem S1x128x128x128 .f32) (h5 : a5.IsWhole)
    (x0 : Vec F S1x3x128x128 .f32) (x1 : Vec F S1x3x128x128 .f32) (x2 : Vec F S256x128 .f32) (x3 : Vec F S128 .f32) :
    out0_A_4 c i a1 h1 a2 h2 a3 h3 a4 h4 a5 h5 x0 x1 x2 x3 = body x0 x1 x2 x3 := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_cons_unit_zero (S := S1x128x128x128) hz4]
  rw [ReadBack.readCov_cons_whole (S := S1x128x128x128) _ hz4, View.readCov_unit_zero (S := S1x128x128x128) _ hz4]
  simp only [View.readAt_eq_ld, h1.read_unread, h2.read_unread, h3.read_unread, h4.read_unread,
    View.ld_unit_zero (S := S128) hz1]
  rfl

end Cert.KernelIdeal.BlockValue

end
-- ==== Proof.PairSpec.lean ====
/-
  The function both programs compute, written once over the argument arrays, and the one law that joins
  their two arrangements.

  For a batch element b, atoms i and j, a coordinate axis c in {0,1,2} and a filter k, put
    lo b i c k = sum over f of x[b,i,c,f] * W[f,k]            (the upper half of the weights, on atom i)
    hi b j c k = sum over f of x[b,j,c,f] * W[128+f,k]        (the lower half of the weights, on atom j)
  The pair entry is lo + hi + bias, weighted by the distance d[b,i,j,c] and summed over c.
  One arrangement adds the bias to lo first, multiplies by the distance on the left and accumulates the
  three axes in order: (t0 + t1) + t2 with tc = d * ((lo + bias) + hi).  The other adds the bias last,
  multiplies by the distance on the right and sums the three axes from zero: 0 + sum_c ((lo + hi) + bias) * d.
  On the extended reals addition and multiplication are commutative and associative with no
  finiteness needed, and that is all the law uses (no distributivity, no cancelling).
-/
import Idealize.ShloMosaic.PureOps.Ideal
import Idealize.ShloMosaic.Lib.ValueIdx

noncomputable section

namespace PairSpec

open Idealize.ShloMosaic Idealize.ShloMosaic.ValueIdx

/-- Row f of the upper half of the 256 weight rows. -/
abbrev rowLo (f : Fin 128) : Fin 256 := ⟨f.val, by omega⟩
/-- Row 128 + f: row f of the lower half of the 256 weight rows. -/
abbrev rowHi (f : Fin 128) : Fin 256 := ⟨128 + f.val, by omega⟩

/-- Features of atom n of batch b on axis c, projected through the upper half of the weights, at filter k. -/
def lo (x : (⟨4, ![8, 128, 3, 128]⟩ : Shape).Idx → EReal) (w : (⟨2, ![256, 128]⟩ : Shape).Idx → EReal)
    (b : Fin 8) (n : Fin 128) (c : Fin 3) (k : Fin 128) : EReal :=
  ∑ f : Fin 128, x (ix4 b n c f) * w (ix2 (rowLo f) k)

/-- The same through the lower half of the weights. -/
def hi (x : (⟨4, ![8, 128, 3, 128]⟩ : Shape).Idx → EReal) (w : (⟨2, ![256, 128]⟩ : Shape).Idx → EReal)
    (b : Fin 8) (n : Fin 128) (c : Fin 3) (k : Fin 128) : EReal :=
  ∑ f : Fin 128, x (ix4 b n c f) * w (ix2 (rowHi f) k)

/-- One axis' contribution, bias folded into the i-part, distance on the left. -/
def term (x : (⟨4, ![8, 128, 3, 128]⟩ : Shape).Idx → EReal) (d : (⟨4, ![8, 128, 128, 3]⟩ : Shape).Idx → EReal)
    (w : (⟨2, ![256, 128]⟩ : Shape).Idx → EReal) (bias : (⟨1, ![128]⟩ : Shape).Idx → EReal)
    (b : Fin 8) (i j : Fin 128) (k : Fin 128) (c : Fin 3) : EReal :=
  d (ix4 b i j c) * ((lo x w b i c k + bias (ix1 k)) + hi x w b j c k)

/-- The result at (b, i, j, k): the three axes accumulated in order. -/
def entry (x : (⟨4, ![8, 128, 3, 128]⟩ : Shape).Idx → EReal) (d : (⟨4, ![8, 128, 128, 3]⟩ : Shape).Idx → EReal)
    (w : (⟨2, ![256, 128]⟩ : Shape).Idx → EReal) (bias : (⟨1, ![128]⟩ : Shape).Idx → EReal)
    (b : Fin 8) (i j : Fin 128) (k : Fin 128) : EReal :=
  (term x d w bias b i j k 0 + term x d w bias b i j k 1) + term x d w bias b i j k 2

/-- The whole result array [8,128,128,128] as one function of the four argument arrays. -/
def G (x : (⟨4, ![8, 128, 3, 128]⟩ : Shape).Idx → EReal) (d : (⟨4, ![8, 128, 128, 3]⟩ : Shape).Idx → EReal)
    (w : (⟨2, ![256, 128]⟩ : Shape).Idx → EReal) (bias : (⟨1, ![128]⟩ : Shape).Idx → EReal) :
    (⟨4, ![8, 128, 128, 128]⟩ : Shape).Idx → EReal :=
  fun q => entry x d w bias (q 0) (q 1) (q 2) (q 3)

theorem G_ix4 (x : (⟨4, ![8, 128, 3, 128]⟩ : Shape).Idx → EReal) (d : (⟨4, ![8, 128, 128, 3]⟩ : Shape).Idx → EReal)
    (w : (⟨2, ![256, 128]⟩ : Shape).Idx → EReal) (bias : (⟨1, ![128]⟩ : Shape).Idx → EReal)
    (b : Fin 8) (i j k : Fin 128) : G x d w bias (ix4 b i j k) = entry x d w bias b i j k := rfl

/-- The other arrangement: bias added last, distance on the right, the axes summed from zero.
    Equal to `entry` by commutativity and associativity alone. -/
theorem sum_form (x : (⟨4, ![8, 128, 3, 128]⟩ : Shape).Idx → EReal) (d : (⟨4, ![8, 128, 128, 3]⟩ : Shape).Idx → EReal)
    (w : (⟨2, ![256, 128]⟩ : Shape).Idx → EReal) (bias : (⟨1, ![128]⟩ : Shape).Idx → EReal)
    (b : Fin 8) (i j k : Fin 128) :
    (0 : EReal) + ∑ c : Fin 3, ((lo x w b i c k + hi x w b j c k) + bias (ix1 k)) * d (ix4 b i j c)
      = entry x d w bias b i j k := by
  have h : ∀ c : Fin 3, ((lo x w b i c k + hi x w b j c k) + bias (ix1 k)) * d (ix4 b i j c)
      = term x d w bias b i j k c := fun c => by
    unfold term
    rw [mul_comm, add_right_comm]
  simp only [h, Fin.sum_univ_three, zero_add, entry]

end PairSpec

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibOuterLayout.lean ====
/-
  The casts and broadcasts by which two matrices and a table of weights are combined into one rank-3
  array, read at coordinates.

  A kernel that forms  out[i, j, k] = d[i, j] * (p[i, k] + q[j, k])  from matrices p, q : [a, c] / [b, c]
  and d : [a, b] gives each a unit axis and broadcasts it along that axis:
      p : [a, c] -> [a, 1, c] -> [a, b, c]   read at (i, j, k) is p (i, k)
      q : [b, c] -> [1, b, c] -> [a, b, c]   read at (i, j, k) is q (j, k)
      d : [a, b] -> [a, b, 1] -> [a, b, c]   read at (i, j, k) is d (i, j)
  Each lemma reads one such operation at an index written by coordinates; also the cast that drops two
  leading unit axes of a [1, 1, a, b] slab.  Generic in the extents and in the element type.
-/
import Idealize.ShloMosaic.Lib.Pipeline.Value
import Idealize.ShloMosaic.Lib.ValueIdx

noncomputable section

namespace OuterLayout

open Idealize.ShloMosaic Idealize.ShloMosaic.ValueIdx

variable {α : Type}

/-- A [1, 1, a, b] slab cast to [a, b] reads, at (i, j), the slab at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix cast to [a, b, 1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b] matrix cast to [a, 1, b] reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A [1, b, c] array broadcast to [a, b, c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end OuterLayout

end
-- ==== Proof.BlockEntry.lean ====
/-
  The body's output block read at an entry, on the extended reals.

  The body's arithmetic is regrouped into a small vocabulary, each word one step of the mathematics:
    mat      a [1,1,128,128] slab seen as a 128 x 128 matrix;
    proj     a feature slab times a half of the weights (the matrix product, from a zero accumulator);
    biasRows the bias repeated on every row;
    axisTerm d[i,j] * (p[i,k] + q[j,k]) as a [128,128,128] array;
    axis     one coordinate axis' contribution: axisTerm of (proj_lo + bias), proj_hi and the distance slab;
    first / accum   the first store, and a later store adding an axis to what the store before left.
  The printed payloads are these words by unfolding alone.  Read at (i, j, k):
    axis = d(i,j) * ((sum_f x(i,f) Wlo(f,k) + bias(k)) + sum_f x(j,f) Whi(f,k)),
  and the block is (axis0 + axis1) + axis2.  With the feature block a transposed window of the feature
  array and the distance block a transposed window of the distance array (hypotheses hX, hD), this is
  the specification's entry.
-/
import proofs.«172709_j6451040878946_2_alg».proof.Proof.BodyTerm
import proofs.«172709_j6451040878946_2_alg».proof.Proof.PairSpec
import proofs.«172709_j6451040878946_2_alg».proof.Proof.LibPlainDot
import proofs.«172709_j6451040878946_2_alg».proof.Proof.LibOuterLayout
import Idealize.ShloMosaic.Lib.ValueLayout
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

section Words
variable {F : FTy → Type} [FloatOps F]

/-- A [1,1,128,128] slab as a matrix. -/
def mat (v : Vec F S1x1x128x128 .f32) : FVec F S128x128 .f32 := shapeCast S128x128 v shapeCasts_S1x1x128x128_S128x128

/-- A feature slab times a half of the weights (already narrowed), from the zero accumulator. -/
def proj (wt : FVec F S128x128 .bf16) (v : Vec F S1x1x128x128 .f32) : FVec F S128x128 .f32 :=
  matmul dot_S128x128_S128x128_S128x128_1_0_0_1_n_n none (truncf .bf16 (mat v) bitsLt_bf16_f32) wt
    (constant S128x128 .f32 0x00000000#32)

/-- The bias on every row. -/
def biasRows (b : Vec F S128 .f32) : FVec F S128x128 .f32 :=
  broadcastTo S128x128 (shapeCast S1x128 b shapeCasts_S128_S1x128) broadcasts_S1x128_S128x128

/-- d[i,j] * (p[i,k] + q[j,k]). -/
def axisTerm (p q : FVec F S128x128 .f32) (dm : Vec F S1x1x128x128 .f32) : FVec F S128x128x128 .f32 :=
  mulf (broadcastTo S128x128x128 (shapeCast S128x128x1 (mat dm) shapeCasts_S128x128_S128x128x1) broadcasts_S128x128x1_S128x128x128)
    (addf (broadcastTo S128x128x128 (shapeCast S128x1x128 p shapeCasts_S128x128_S128x1x128) broadcasts_S128x1x128_S128x128x128)
      (broadcastTo S128x128x128 (shapeCast S1x128x128 q shapeCasts_S128x128_S1x128x128) broadcasts_S1x128x128_S128x128x128))

/-- One axis' contribution from the two weight halves, the bias, a feature slab and a distance slab. -/
def axis (wl wh : Vec F S128x128 .f32) (b : Vec F S128 .f32) (xs ds : Vec F S1x1x128x128 .f32) : FVec F S128x128x128 .f32 :=
  axisTerm (addf (proj (truncf .bf16 wl bitsLt_bf16_f32) xs) (biasRows b)) (proj (truncf .bf16 wh bitsLt_bf16_f32) xs) ds

/-- The first store: the axis-0 array as the [1,128,128,128] block. -/
def first (a : FVec F S128x128x128 .f32) : FVec F S1x128x128x128 .f32 :=
  shapeCast S1x128x128x128 a shapeCasts_S128x128x128_S1x128x128x128

/-- A later store: what the store before left, plus the next axis' array. -/
def accum (prev : Vec F S1x128x128x128 .f32) (a : FVec F S128x128x128 .f32) : FVec F S1x128x128x128 .f32 :=
  shapeCast S1x128x128x128 (addf (shapeCast S128x128x128 prev shapeCasts_S1x128x128x128_S128x128x128) a)
    shapeCasts_S128x128x128_S1x128x128x128

/-- The body's term in these words: by unfolding alone. -/
theorem body_eq (x0 x1 : Vec F S1x3x128x128 .f32) (x2 : Vec F S256x128 .f32) (x3 : Vec F S128 .f32) :
    body x0 x1 x2 x3
      = accum (accum (first (axis (wLo x2) (wHi x2) x3 (slab0 x0) (slab0 x1)))
          (axis (wLo x2) (wHi x2) x3 (slab1 x0) (slab1 x1)))
        (axis (wLo x2) (wHi x2) x3 (slab2 x0) (slab2 x1)) := rfl

end Words

/-! ## The words read at an entry, on the extended reals -/

theorem mat_apply (v : Vec Ideal S1x1x128x128 .f32) (i j : Fin 128) : mat v (ix2 i j) = v (ix4 (0 : Fin 1) (0 : Fin 1) i j) :=
  OuterLayout.shapeCast_11ab_ab_apply v shapeCasts_S1x1x128x128_S128x128 i j

theorem proj_apply (wt : FVec Ideal S128x128 .bf16) (v : Vec Ideal S1x1x128x128 .f32) (r k : Fin 128) :
    proj wt v (ix2 r k) = ∑ f : Fin 128, v (ix4 (0 : Fin 1) (0 : Fin 1) r f) * wt (ix2 f k) := by
  unfold proj
  refine (PlainDot.matmul_zero_apply 128 128 128 none (truncf .bf16 (mat v) bitsLt_bf16_f32) wt (ix2 r k)).trans ?_
  refine Finset.sum_congr rfl fun f _ => ?_
  exact congrArg (· * wt (ix2 f k)) (mat_apply v r f)

theorem biasRows_apply (b : Vec Ideal S128 .f32) (r k : Fin 128) : biasRows b (ix2 r k) = b (ix1 k) :=
  (broadcastTo_1b_ab_apply (shapeCast S1x128 b shapeCasts_S128_S1x128) broadcasts_S1x128_S128x128 r k).trans
    (shapeCast_a_1a_apply b shapeCasts_S128_S1x128 (0 : Fin 1) k)

theorem axisTerm_apply (p q : FVec Ideal S128x128 .f32) (dm : Vec Ideal S1x1x128x128 .f32) (i j k : Fin 128) :
    axisTerm p q dm (ix3 i j k) = dm (ix4 (0 : Fin 1) (0 : Fin 1) i j) * (p (ix2 i k) + q (ix2 j k)) := by
  unfold axisTerm
  rw [mulf_apply, addf_apply, OuterLayout.broadcastTo_ab1_abc_apply, OuterLayout.shapeCast_ab_ab1_apply, mat_apply,
    OuterLayout.broadcastTo_a1c_abc_apply, OuterLayout.shapeCast_ab_a1b_apply, OuterLayout.broadcastTo_1bc_abc_apply,
    shapeCast_ab_1ab_apply]

theorem axis_apply (wl wh : Vec Ideal S128x128 .f32) (b : Vec Ideal S128 .f32) (xs ds : Vec Ideal S1x1x128x128 .f32)
    (i j k : Fin 128) :
    axis wl wh b xs ds (ix3 i j k)
      = ds (ix4 (0 : Fin 1) (0 : Fin 1) i j)
        * ((∑ f : Fin 128, xs (ix4 (0 : Fin 1) (0 : Fin 1) i f) * wl (ix2 f k) + b (ix1 k))
          + ∑ f : Fin 128, xs (ix4 (0 : Fin 1) (0 : Fin 1) j f) * wh (ix2 f k)) := by
  unfold axis
  rw [axisTerm_apply, addf_apply, proj_apply, proj_apply, biasRows_apply]
  rfl

theorem first_apply (a : FVec Ideal S128x128x128 .f32) (u : Fin 1) (i j k : Fin 128) :
    first a (ix4 u i j k) = a (ix3 i j k) :=
  shapeCast_abc_1abc_apply a shapeCasts_S128x128x128_S1x128x128x128 u i j k

theorem accum_apply (prev : Vec Ideal S1x128x128x128 .f32) (a : FVec Ideal S128x128x128 .f32) (u : Fin 1) (i j k : Fin 128) :
    accum prev a (ix4 u i j k) = prev (ix4 (0 : Fin 1) i j k) + a (ix3 i j k) := by
  unfold accum
  rw [shapeCast_abc_1abc_apply, addf_apply, shapeCast_1abc_abc_apply]

/-! ## The slabs and the weight halves read at an entry -/

section Reads
variable {F : FTy → Type} [FloatOps F]

theorem slab0_apply (x : Vec F S1x3x128x128 .f32) (r f : Fin 128) :
    slab0 x (ix4 (0 : Fin 1) (0 : Fin 1) r f) = x (ix4 (0 : Fin 1) (0 : Fin 3) r f) :=
  congrArg x (funext fun a => Fin.ext (by
    match a with
    | ⟨0, _⟩ => rfl
    | ⟨1, _⟩ => rfl
    | ⟨2, _⟩ => show 0 + 1 * r.val = r.val; omega
    | ⟨3, _⟩ => show 0 + 1 * f.val = f.val; omega))

theorem slab1_apply (x : Vec F S1x3x128x128 .f32) (r f : Fin 128) :
    slab1 x (ix4 (0 : Fin 1) (0 : Fin 1) r f) = x (ix4 (0 : Fin 1) (1 : Fin 3) r f) :=
  congrArg x (funext fun a => Fin.ext (by
    match a with
    | ⟨0, _⟩ => rfl
    | ⟨1, _⟩ => rfl
    | ⟨2, _⟩ => show 0 + 1 * r.val = r.val; omega
    | ⟨3, _⟩ => show 0 + 1 * f.val = f.val; omega))

theorem slab2_apply (x : Vec F S1x3x128x128 .f32) (r f : Fin 128) :
    slab2 x (ix4 (0 : Fin 1) (0 : Fin 1) r f) = x (ix4 (0 : Fin 1) (2 : Fin 3) r f) :=
  congrArg x (funext fun a => Fin.ext (by
    match a with
    | ⟨0, _⟩ => rfl
    | ⟨1, _⟩ => rfl
    | ⟨2, _⟩ => show 0 + 1 * r.val = r.val; omega
    | ⟨3, _⟩ => show 0 + 1 * f.val = f.val; omega))

theorem wLo_apply (x : Vec F S256x128 .f32) (f k : Fin 128) :
    wLo x (ix2 f k) = x (ix2 (PairSpec.rowLo f) k) :=
  congrArg x (funext fun a => Fin.ext (by
    match a with
    | ⟨0, _⟩ => show 0 + 1 * f.val = f.val; omega
    | ⟨1, _⟩ => show 0 + 1 * k.val = k.val; omega))

theorem wHi_apply (x : Vec F S256x128 .f32) (f k : Fin 128) :
    wHi x (ix2 f k) = x (ix2 (PairSpec.rowHi f) k) :=
  congrArg x (funext fun a => Fin.ext (by
    match a with
    | ⟨0, _⟩ => show 128 + 1 * f.val = 128 + f.val; omega
    | ⟨1, _⟩ => show 0 + 1 * k.val = k.val; omega))

end Reads

/-! ## The block's entry is the specification's -/

/-- One axis of the block at (i, j, k), over the arrays the blocks are windows of. -/
theorem axis_entry (x0 x1 : Vec Ideal S1x3x128x128 .f32) (x2 : Vec Ideal S256x128 .f32) (x3 : Vec Ideal S128 .f32)
    (X : (⟨4, ![8, 128, 3, 128]⟩ : Shape).Idx → EReal) (D : (⟨4, ![8, 128, 128, 3]⟩ : Shape).Idx → EReal) (b : Fin 8)
    (c : Fin 3) (xs ds : Vec Ideal S1x1x128x128 .f32)
    (hxs : ∀ r f : Fin 128, xs (ix4 (0 : Fin 1) (0 : Fin 1) r f) = x0 (ix4 (0 : Fin 1) c r f))
    (hds : ∀ r f : Fin 128, ds (ix4 (0 : Fin 1) (0 : Fin 1) r f) = x1 (ix4 (0 : Fin 1) c r f))
    (hX : ∀ (c : Fin 3) (n f : Fin 128), x0 (ix4 (0 : Fin 1) c n f) = X (ix4 b n c f))
    (hD : ∀ (c : Fin 3) (i j : Fin 128), x1 (ix4 (0 : Fin 1) c i j) = D (ix4 b i j c))
    (i j k : Fin 128) :
    axis (wLo x2) (wHi x2) x3 xs ds (ix3 i j k) = PairSpec.term X D x2 x3 b i j k c := by
  rw [axis_apply]
  unfold PairSpec.term PairSpec.lo PairSpec.hi
  simp only [hxs, hds, hX, hD, wLo_apply, wHi_apply]

/-- The body's output block at any entry is the specification's entry for the batch element `b` whose
    feature and distance windows the input blocks are. -/
theorem body_entry (x0 x1 : Vec Ideal S1x3x128x128 .f32) (x2 : Vec Ideal S256x128 .f32) (x3 : Vec Ideal S128 .f32)
    (X : (⟨4, ![8, 128, 3, 128]⟩ : Shape).Idx → EReal) (D : (⟨4, ![8, 128, 128, 3]⟩ : Shape).Idx → EReal) (b : Fin 8)
    (hX : ∀ (c : Fin 3) (n f : Fin 128), x0 (ix4 (0 : Fin 1) c n f) = X (ix4 b n c f))
    (hD : ∀ (c : Fin 3) (i j : Fin 128), x1 (ix4 (0 : Fin 1) c i j) = D (ix4 b i j c))
    (y : S1x128x128x128.Idx) :
    body x0 x1 x2 x3 y = PairSpec.entry X D x2 x3 b (y 1) (y 2) (y 3) := by
  obtain ⟨u, i, j, k, rfl⟩ : ∃ (u : Fin 1) (i j k : Fin 128), y = ix4 u i j k := ⟨y 0, y 1, y 2, y 3, eq_ix4 y⟩
  rw [body_eq, accum_apply, accum_apply, first_apply,
    axis_entry x0 x1 x2 x3 X D b 0 (slab0 x0) (slab0 x1) (slab0_apply x0) (slab0_apply x1) hX hD,
    axis_entry x0 x1 x2 x3 X D b 1 (slab1 x0) (slab1 x1) (slab1_apply x0) (slab1_apply x1) hX hD,
    axis_entry x0 x1 x2 x3 X D b 2 (slab2 x0) (slab2 x1) (slab2_apply x0) (slab2_apply x1) hX hD]
  rfl

end Cert.KernelIdeal.BlockValue

end
-- ==== Proof.KernelArray.lean ====
/-
  From the blocks to the whole result array.

  Grid point t (one batch element) stages window t of the transposed feature array [8,3,128,128], window t
  of the transposed distance array [8,3,128,128], the whole weights and the whole bias, and writes back
  block t of the result [8,128,128,128].  The transposes are host operations before the region:
      featT[b,c,n,f] = features[b,n,c,f],      distT[b,c,i,j] = distances[b,i,j,c].
  So the feature block at point t read at (0,c,n,f) is features[t,n,c,f], the distance block at (0,c,i,j)
  is distances[t,i,j,c], and what point t writes back is block t of the specification's array.  The eight
  blocks tile the result (entry (b,i,j,k) lies in block b), so after the run the result array is the
  specification's function of the four argument arrays.
-/
import proofs.«172709_j6451040878946_2_alg».proof.Proof.Gen.KernelIdeal.Value
import proofs.«172709_j6451040878946_2_alg».proof.Proof.BlockBody
import proofs.«172709_j6451040878946_2_alg».proof.Proof.BlockEntry
import Idealize.ShloMosaic.Lib.Pipeline.Value
import Idealize.ShloMosaic.Lib.StableHlo.Run
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result array as the specification's function of the four argument arrays. -/
abbrev result (c : Dev nD) : Buf (Elt Ideal) ((c : Thread nD τ).loc main_v2) :=
  PairSpec.G (m ((c : Thread nD τ).loc main_arg0)) (m ((c : Thread nD τ).loc main_arg1))
    (m ((c : Thread nD τ).loc main_arg2)) (m ((c : Thread nD τ).loc main_arg3))

/-! ## What the region finds in the two transposed arrays -/

theorem V_featT (c : Dev nD) : (V m c main_v0 : S8x3x128x128.Idx → Ideal .f32)
    = transpose S8x3x128x128 [0, 2, 1, 3] (m ((c : Thread nD τ).loc main_arg0)) transposes_S8x128x3x128_S8x3x128x128_0_2_1_3 := by
  dsimp only [Gen.V, Gen.hostOps0]; after_results

theorem V_distT (c : Dev nD) : (V m c main_v1 : S8x3x128x128.Idx → Ideal .f32)
    = transpose S8x3x128x128 [0, 3, 1, 2] (m ((c : Thread nD τ).loc main_arg1)) transposes_S8x128x128x3_S8x3x128x128_0_3_1_2 := by
  dsimp only [Gen.V, Gen.hostOps0]; after_results

/-! ## Where the windows sit at each grid point -/

/-- The printed index maps, decided over the eight grid points: the feature, distance and result windows
    are at block (t, 0, 0, 0), the weights and the bias at block zero. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 2) = 0 ∧ win0_2.index t (1 : Fin 2) = 0)
    ∧ win0_3.index t (0 : Fin 1) = 0
    ∧ (win0_4.index t (0 : Fin 4) = t.val ∧ win0_4.index t (1 : Fin 4) = 0 ∧ win0_4.index t (2 : Fin 4) = 0 ∧ win0_4.index t (3 : Fin 4) = 0) :=
  (by decide +kernel : ∀ t : Fin grid0.N, _)

/-! ## The input blocks as entries of the argument arrays -/

/-- The feature block at point t, at (0, cc, n, f), is features[t, n, cc, f]. -/
theorem iblk_feat (c : Dev nD) (t : Fin cfg0.N) (b : Fin 8) (hb : b.val = t.val) (cc : Fin 3) (n f : Fin 128) :
    (iblk m c 0 t : Vec Ideal S1x3x128x128 .f32) (ix4 (0 : Fin 1) cc n f)
      = m ((c : Thread nD τ).loc main_arg0) (ix4 b n cc f) := by
  obtain ⟨⟨e0, e1, e2, e3⟩, -⟩ := idx_facts t
  show V m c main_v0 (((cfg0.win 0).blk t).view.emb (ix4 (0 : Fin 1) cc n f)) = _
  rw [V_featT]
  refine transpose_apply _ _ _ _ (ix4 b n cc f) fun ax => ?_
  match ax with
  | ⟨0, _⟩ => show b.val = win0_0.index t (0 : Fin 4) * 1 + 1 * 0; omega
  | ⟨1, _⟩ => show cc.val = win0_0.index t (1 : Fin 4) * 3 + 1 * cc.val; omega
  | ⟨2, _⟩ => show n.val = win0_0.index t (2 : Fin 4) * 128 + 1 * n.val; omega
  | ⟨3, _⟩ => show f.val = win0_0.index t (3 : Fin 4) * 128 + 1 * f.val; omega

/-- The distance block at point t, at (0, cc, i, j), is distances[t, i, j, cc]. -/
theorem iblk_dist (c : Dev nD) (t : Fin cfg0.N) (b : Fin 8) (hb : b.val = t.val) (cc : Fin 3) (i j : Fin 128) :
    (iblk m c 1 t : Vec Ideal S1x3x128x128 .f32) (ix4 (0 : Fin 1) cc i j)
      = m ((c : Thread nD τ).loc main_arg1) (ix4 b i j cc) := by
  obtain ⟨-, ⟨e0, e1, e2, e3⟩, -⟩ := idx_facts t
  show V m c main_v1 (((cfg0.win 1).blk t).view.emb (ix4 (0 : Fin 1) cc i j)) = _
  rw [V_distT]
  refine transpose_apply _ _ _ _ (ix4 b i j cc) fun ax => ?_
  match ax with
  | ⟨0, _⟩ => show b.val = win0_1.index t (0 : Fin 4) * 1 + 1 * 0; omega
  | ⟨1, _⟩ => show cc.val = win0_1.index t (1 : Fin 4) * 3 + 1 * cc.val; omega
  | ⟨2, _⟩ => show i.val = win0_1.index t (2 : Fin 4) * 128 + 1 * i.val; omega
  | ⟨3, _⟩ => show j.val = win0_1.index t (3 : Fin 4) * 128 + 1 * j.val; omega

/-- The weight block at every point is the whole weight array. -/
theorem iblk_weights (c : Dev nD) (t : Fin cfg0.N) :
    (iblk m c 2 t : Vec Ideal S256x128 .f32) = m ((c : Thread nD τ).loc main_arg2) := by
  obtain ⟨-, -, ⟨e0, e1⟩, -⟩ := idx_facts t
  funext y
  show V m c main_arg2 (((cfg0.win 2).blk t).view.emb y) = _
  rw [V_main_arg2]
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega

/-- The bias block at every point is the whole bias array. -/
theorem iblk_bias (c : Dev nD) (t : Fin cfg0.N) :
    (iblk m c 3 t : Vec Ideal S128 .f32) = m ((c : Thread nD τ).loc main_arg3) := by
  obtain ⟨-, -, -, e0, -⟩ := idx_facts t
  funext y
  show V m c main_arg3 (((cfg0.win 3).blk t).view.emb y) = _
  rw [V_main_arg3]
  refine congrArg _ (funext fun a => Fin.ext ?_)
  match a with
  | ⟨0, _⟩ => show win0_3.index t (0 : Fin 1) * 128 + 1 * (y 0).val = (y 0).val; omega

/-! ## What each point writes back, and the whole array -/

/-- What point t writes back is block t of the specification's array. -/
theorem flushed_eq (c : Dev nD) (t : Fin cfg0.N) :
    (dats m 0 c).flushed 4 t = ((cfg0.win 4).blk t).view.read (Elt Ideal) (result m c) := by
  have hN : cfg0.N = 8 := N_0
  have ht : t.val < 8 := by have := t.isLt; omega
  obtain ⟨-, -, -, -, ⟨e0, e1, e2, e3⟩⟩ := idx_facts t
  rw [Cert.KernelIdeal.Value.flushed4_A]
  refine (congrArg ((cfg0.win 4).cut (grid0.coords t))
    (BlockValue.out_body (F := Ideal) c (grid0.coords t) (ms0_0 t) (hs0_0 t) (ms0_1 t) (hs0_1 t) (ms0_2 t) (hs0_2 t)
      (ms0_3 t) (hs0_3 t) (ms0_4 t) (hs0_4 t) (iblk m c 0 t) (iblk m c 1 t) (iblk m c 2 t) (iblk m c 3 t))).trans ?_
  funext y
  show BlockValue.body (iblk m c 0 t) (iblk m c 1 t) (iblk m c 2 t) (iblk m c 3 t) y
    = result m c (((cfg0.win 4).blk t).view.emb y)
  refine (BlockValue.body_entry (iblk m c 0 t) (iblk m c 1 t) (iblk m c 2 t) (iblk m c 3 t)
    (m ((c : Thread nD τ).loc main_arg0)) (m ((c : Thread nD τ).loc main_arg1)) ⟨t.val, ht⟩
    (iblk_feat m c t ⟨t.val, ht⟩ rfl) (iblk_dist m c t ⟨t.val, ht⟩ rfl) y).trans ?_
  rw [iblk_weights, iblk_bias]
  have hy0 : (y 0).val = 0 := by have : (y 0).val < 1 := (y 0).isLt; omega
  have q0 : (((cfg0.win 4).blk t).view.emb y) 0 = (⟨t.val, ht⟩ : Fin 8) :=
    Fin.ext (show win0_4.index t (0 : Fin 4) * 1 + 1 * (y 0).val = t.val by omega)
  have q1 : (((cfg0.win 4).blk t).view.emb y) 1 = y 1 :=
    Fin.ext (show win0_4.index t (1 : Fin 4) * 128 + 1 * (y 1).val = (y 1).val by omega)
  have q2 : (((cfg0.win 4).blk t).view.emb y) 2 = y 2 :=
    Fin.ext (show win0_4.index t (2 : Fin 4) * 128 + 1 * (y 2).val = (y 2).val by omega)
  have q3 : (((cfg0.win 4).blk t).view.emb y) 3 = y 3 :=
    Fin.ext (show win0_4.index t (3 : Fin 4) * 128 + 1 * (y 3).val = (y 3).val by omega)
  show _ = PairSpec.entry _ _ _ _ ((((cfg0.win 4).blk t).view.emb y) 0) ((((cfg0.win 4).blk t).view.emb y) 1)
    ((((cfg0.win 4).blk t).view.emb y) 2) ((((cfg0.win 4).blk t).view.emb y) 3)
  rw [q0, q1, q2, q3]

/-- An index of the result array is in point t's block iff each coordinate is in the block's range. -/
theorem mem_blk (t : Fin cfg0.N) (i : S8x128x128x128.Idx) :
    i ∈ ((cfg0.win 4).blk t).view.set ↔ ∀ a : Fin 4, win0_4.index t a * S1x128x128x128.size a ≤ (i a).val
      ∧ (i a).val < win0_4.index t a * S1x128x128x128.size a + S1x128x128x128.size a := by
  show i ∈ ((View.whole main_v2).slice (win0_4.rect t)).set ↔ _
  rw [View.set_slice_whole, Rect.mem_set_unit]
  exact Iff.rfl

/-- The eight blocks tile the result, so after the run the result array is the specification's. -/
theorem final (c : Dev nD) : (dats m 0 c).arrAt 4 cfg0.N = result m c :=
  (dats m 0 c).arrAt_eq_of_cover 4 (result m c) (fun t _ => flushed_eq m c t) fun i => by
    have hN : cfg0.N = 8 := N_0
    have h0 : (i 0).val < 8 := (i 0).isLt
    have h1 : (i 1).val < 128 := (i 1).isLt
    have h2 : (i 2).val < 128 := (i 2).isLt
    have h3 : (i 3).val < 128 := (i 3).isLt
    refine ⟨⟨(i 0).val, by show (i 0).val < cfg0.N; omega⟩, flush0_4 _, ?_⟩
    obtain ⟨-, -, -, -, ⟨e0, e1, e2, e3⟩⟩ := idx_facts ⟨(i 0).val, by show (i 0).val < cfg0.N; omega⟩
    rw [mem_blk]
    intro a
    match a with
    | ⟨0, _⟩ =>
      show win0_4.index _ (0 : Fin 4) * 1 ≤ (i 0).val ∧ (i 0).val < win0_4.index _ (0 : Fin 4) * 1 + 1
      rw [e0]; dsimp only; omega
    | ⟨1, _⟩ =>
      show win0_4.index _ (1 : Fin 4) * 128 ≤ (i 1).val ∧ (i 1).val < win0_4.index _ (1 : Fin 4) * 128 + 128
      rw [e1]; omega
    | ⟨2, _⟩ =>
      show win0_4.index _ (2 : Fin 4) * 128 ≤ (i 2).val ∧ (i 2).val < win0_4.index _ (2 : Fin 4) * 128 + 128
      rw [e2]; omega
    | ⟨3, _⟩ =>
      show win0_4.index _ (3 : Fin 4) * 128 ≤ (i 3).val ∧ (i 3).val < win0_4.index _ (3 : Fin 4) * 128 + 128
      rw [e3]; omega

/-- The kernel's run, read: the result array at the specification's function of the arguments, the
    arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.RefPair.lean ====
/-
  The reference's result, read one operation at a time, is the specification's function of the four
  argument arrays: at (b, i, j, k) the host sums over the axis c, from zero, the product of
  ((x_i W_upper + x_j W_lower) + bias) with the distance d[b,i,j,c].  Both weight halves are slices of the
  one weight array (rows f and 128 + f), both projections read the same feature array (atom i for the
  first, atom j for the second), and every broadcast only repeats an entry along the axes it adds.
-/
import proofs.«172709_j6451040878946_2_alg».proof.Proof.Gen.ReferenceIdeal.Read
import proofs.«172709_j6451040878946_2_alg».proof.Proof.PairSpec

noncomputable section

namespace Cert.ReferenceIdeal.RefValue

open Cert.ReferenceIdeal Cert.ReferenceIdeal.Read Idealize.ShloMosaic Idealize.ShloMosaic.ValueIdx

/-- The reference's last stage is the specification, index by index. -/
theorem ref_eq (x0 : (⟨S8x128x3x128, .f32⟩ : BufTy).Contents (Elt Ideal)) (x1 : (⟨S8x128x128x3, .f32⟩ : BufTy).Contents (Elt Ideal))
    (x2 : (⟨S256x128, .f32⟩ : BufTy).Contents (Elt Ideal)) (x3 : (⟨S128, .f32⟩ : BufTy).Contents (Elt Ideal)) :
    val_main_v15 (F := Ideal) x0 x1 x2 x3 = PairSpec.G x0 x1 x2 x3 := by
  funext q
  obtain ⟨b, i, j, k, rfl⟩ : ∃ (b : Fin 8) (i j k : Fin 128), q = ix4 b i j k := ⟨q 0, q 1, q 2, q 3, eq_ix4 q⟩
  rw [PairSpec.G_ix4, ← PairSpec.sum_form, val_main_v15_apply]
  refine congrArg₂ (· + ·) ?_ (Finset.sum_congr rfl fun c _ => ?_)
  · exact Ideal.ofBits_zero_f32
  · -- the entry of the product array at (b, i, j, c, k)
    have eLi : ∀ f : Fin 128, lidx_main_v1 (idx_main_v4 (idx_main_v6 (idx_main_v15 (ix4 b i j k) c))) f = ix4 b i c f :=
      fun f => funext fun a => Fin.ext (by match a with | ⟨0, _⟩ => rfl | ⟨1, _⟩ => rfl | ⟨2, _⟩ => rfl | ⟨3, _⟩ => rfl)
    have eLj : ∀ f : Fin 128, lidx_main_v3 (idx_main_v5 (idx_main_v7 (idx_main_v15 (ix4 b i j k) c))) f = ix4 b j c f :=
      fun f => funext fun a => Fin.ext (by match a with | ⟨0, _⟩ => rfl | ⟨1, _⟩ => rfl | ⟨2, _⟩ => rfl | ⟨3, _⟩ => rfl)
    have eWi : ∀ f : Fin 128, idx_main_v0 (ridx_main_v1 (idx_main_v4 (idx_main_v6 (idx_main_v15 (ix4 b i j k) c))) f)
        = ix2 (PairSpec.rowLo f) k :=
      fun f => funext fun a => Fin.ext (by match a with | ⟨0, _⟩ => rfl | ⟨1, _⟩ => rfl)
    have eWj : ∀ f : Fin 128, idx_main_v2 (ridx_main_v3 (idx_main_v5 (idx_main_v7 (idx_main_v15 (ix4 b i j k) c))) f)
        = ix2 (PairSpec.rowHi f) k :=
      fun f => funext fun a => Fin.ext (by match a with | ⟨0, _⟩ => rfl | ⟨1, _⟩ => rfl)
    have eB : idx_main_v9 (idx_main_v10 (idx_main_v15 (ix4 b i j k) c)) = ix1 k :=
      funext fun a => Fin.ext (by match a with | ⟨0, _⟩ => rfl)
    have eD : idx_main_v12 (idx_main_v13 (idx_main_v15 (ix4 b i j k) c)) = ix4 b i j c :=
      funext fun a => Fin.ext (by match a with | ⟨0, _⟩ => rfl | ⟨1, _⟩ => rfl | ⟨2, _⟩ => rfl | ⟨3, _⟩ => rfl)
    rw [val_main_v14_apply, val_main_v11_apply, val_main_v8_apply, val_main_v6_apply, val_main_v4_apply, val_main_v1_apply,
      val_main_v7_apply, val_main_v5_apply, val_main_v3_apply, val_main_v10_apply, val_main_v9_apply, val_main_v13_apply,
      val_main_v12_apply]
    simp only [val_main_v0_apply, val_main_v2_apply, eLi, eLj, eWi, eWj, eB, eD, Ideal.addf_def, Ideal.mulf_def]
    rfl

end Cert.ReferenceIdeal.RefValue

end
-- ==== Proof.lean ====
/-
  Pairwise projection of atom features, weighted by distances and summed over the three coordinate axes.

  Arguments: features x[b,n,c,f] (8 x 128 x 3 x 128), distances d[b,i,j,c] (8 x 128 x 128 x 3), weights
  W (256 x 128) and a bias (128).  With
      lo[b,i,c,k] = sum_f x[b,i,c,f] W[f,k],        hi[b,j,c,k] = sum_f x[b,j,c,f] W[128+f,k],
  the result is  out[b,i,j,k] = sum_c (lo[b,i,c,k] + hi[b,j,c,k] + bias[k]) d[b,i,j,c].

  The kernel works one batch element per grid point on transposed copies of x and d.  For each axis c it
  forms the two 128 x 128 matrix products, adds the bias to the first, and stores
  d[i,j] * ((lo + bias)[i,k] + hi[j,k]); the axes c = 1, 2 are added onto what the output block already
  holds.  Its block therefore ends as (t0 + t1) + t2, and the eight blocks tile the result.

  The reference forms lo and hi for all batch elements at once, adds them, adds the bias, multiplies by the
  distances on the right and sums the axis c from zero.

  On the extended reals both are the same function of the arguments: narrowing to bf16 is the identity,
  a matrix product from a zero accumulator is the plain finite sum, and the two arrangements differ only
  by commutativity and associativity of + and *, which hold with infinite values too.  No finiteness of
  the inputs is used.  The idealization rewrote no operation, so the preservation claim is trivial.
-/
import proofs.«172709_j6451040878946_2_alg».proof.Defs
import proofs.«172709_j6451040878946_2_alg».proof.Proof.Gen.Kernel
import proofs.«172709_j6451040878946_2_alg».proof.Proof.Gen.Kernel.Frame
import proofs.«172709_j6451040878946_2_alg».proof.Proof.Gen.KernelIdeal
import proofs.«172709_j6451040878946_2_alg».proof.Proof.Gen.KernelIdeal.Frame
import proofs.«172709_j6451040878946_2_alg».proof.Proof.Gen.KernelIdeal.Value
import proofs.«172709_j6451040878946_2_alg».proof.Proof.Gen.ReferenceIdeal
import proofs.«172709_j6451040878946_2_alg».proof.Proof.Gen.ReferenceIdeal.Run
import proofs.«172709_j6451040878946_2_alg».proof.Proof.Gen.ReferenceIdeal.Read
import proofs.«172709_j6451040878946_2_alg».proof.Proof.Gen.Pre_finite_inputs
import proofs.«172709_j6451040878946_2_alg».proof.Proof.KernelArray
import proofs.«172709_j6451040878946_2_alg».proof.Proof.RefPair
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- Both programs end with the result array at the specification's function of arguments that agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
